-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 6
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v10 : BitVec 32 := Scalar.muli arg0 c400_i32
  let v11 : Index := Scalar.indexCast v10
  let c0_8 : Index := 0#32
  ![v11.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10000x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  h_S400x128 : 0 < S400x128.numel
  dot_S400x10000_S10000x128_S400x128_1_0_0_1_n_n_wf : DotDims.WF S400x10000 S10000x128 S400x128 [1] [0] [0] [1] [] []
  dot_S400x128_S128x128_S400x128_1_1_0_0_n_n_wf : DotDims.WF S400x128 S128x128 S400x128 [1] [1] [0] [0] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S10000x128.size a
  hwx0_4 : ∀ i : grid0.Coords, EltTy.bits .f32 = 32 ∨ (Rect.block (s := S10000x128) S10000x128.size (cc0_transform_4 i) (hinb0_4 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_1_0_0_n_n : DotDims S400x128 S128x128 S400x128 where
  lhsContracting := [1]
  rhsContracting := [1]
  lhsNonContracting := [0]
  rhsNonContracting := [0]
  lhsBatch := []
  rhsBatch := []
  wf := dot_S400x128_S128x128_S400x128_1_1_0_0_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S10000x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩

abbrev nBuf : Space → Nat
  | .hbm => 11
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S128x128, .f32⟩
  | .hbm, ⟨6, _⟩ => ⟨S10000x128, .f32⟩
  | .hbm, ⟨7, _⟩ => ⟨S1x128, .f32⟩
  | .hbm, ⟨8, _⟩ => ⟨S10000x128, .f32⟩
  | .hbm, ⟨9, _⟩ => ⟨S10000x128, .f32⟩
  | .hbm, ⟨10, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.RunK.lean ====
/-
  One grid point of the fused layer's kernel. The body reads its four input blocks whole (a block of 400 rows of the
  adjacency, all the node features, the weights, the bias as one row), computes a block `v` of 400 output rows from them,
  and stores `v` into rows `[400·i, 400·i + 400)` of the output's staging buffer, which holds the WHOLE output
  `[10000, 128]` and is carried from point to point. So the buffer after the point is the buffer before it with those
  400 rows replaced (`Stored`), every other row untouched; the inputs are left as they were.
-/
import proofs.«125469_g90340342104105_cont_sun_m_338_18_alg».proof.Proof.Gen.Kernel.Frame
import proofs.«125469_g90340342104105_cont_sun_m_338_18_alg».proof.Proof.Gen.Kernel.Skeleton
import Idealize.ShloMosaic.Lib.WritesUnit
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Facts₀ Facts

variable {F : FTy → Type} [FloatOps F]

local notation "𝕄" => MT nD τ sig Unit (Elt F) ℕ (UR sig nD τ) ℕ

/-- Rows `[o, o + 400)` of `X` are the block `v`; every other row of `X` is that row of `d`. -/
def Stored (o : ℕ) (v : S400x128.Idx → Elt F .f32) (d X : S10000x128.Idx → Elt F .f32) : Prop :=
  (∀ (x : S400x128.Idx) (y : S10000x128.Idx), (y 0).val = o + (x 0).val → (y 1).val = (x 1).val → X y = v x)
    ∧ (∀ y : S10000x128.Idx, ((y 0).val < o ∨ o + 400 ≤ (y 0).val) → X y = d y)

/-- The offsets `(0, 0)` of a whole-block access. -/
theorem off00 : (![0, 0] : Fin 2 → ℕ) = fun _ => 0 := by
  funext a; match a with | ⟨0, _⟩ => rfl | ⟨1, _⟩ => rfl

/-- One store of a 400-row block at the point's row offset into a buffer holding `d`: read back, the buffer is `d`
    with those rows replaced. The offset the kernel computes, `i · 400` as a machine word, is the number `400 · i`
    at every point of the grid. -/
theorem stored_of_store (arg5 : Memref sig .tc .vmem S10000x128 .f32) (harg5 : arg5.IsWhole) (i : grid0.Coords)
    (d : S10000x128.Idx → Elt F .f32) (v : S400x128.Idx → Elt F .f32) :
    Stored (400 * (i 0).val) v d
      (arg5.view.read (Elt F) (arg5.view.writes (Elt F) (harg5.unread d)
        [⟨Rect.unit (s := S10000x128) (k0_off1 i) S400x128.size (Facts₀.k0_off1_inb i), v⟩])) :=
  ⟨fun x y h0 h1 => View.read_writes_cons_rows_of_mem arg5.view (harg5.unread d) (Facts₀.k0_off1_inb i) v [] y x (k0_off1_eq i) h0 h1,
   fun y h => (View.read_writes_cons_rows_of_not_mem arg5.view (harg5.unread d) (Facts₀.k0_off1_inb i) v [] y (k0_off1_eq i) rfl h).trans
      (congrFun (harg5.read_unread d) y)⟩

set_option maxHeartbeats 1000000 in
/-- The body's triple at grid coordinates `i`: from the four inputs' staging buffers at `x0 … x3` and the output's at
    `d`, the body runs to the inputs' buffers unchanged and the output's at `d` with rows `[400·i, 400·i + 400)`
    replaced by the block computed from `x0 … x3`. -/
theorem bodyRun (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole)
    (x0 : Vec F S400x10000 .f32) (x1 : Vec F S10000x128 .f32) (x2 : Vec F S128x128 .f32) (x3 : Vec F S1x128 .f32) (d : Vec F S10000x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare d
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ X, ⌜Stored (400 * (i 0).val) (k0_pay1 x0 x1 x2 x3) d X⌝ ∗ owns (c : Thread nD τ) arg5 fullShare X)) -∗ K ⟨⟩))
          ⊢ wp frame (wpE (defs₀ (F := F)) Variants.none c none) E (cc0__fused_gcn_kernel i arg1 harg1 arg2 harg2 arg3 harg3 arg4 harg4 arg5 harg5) K := by
    intro E K
    simp only [cc0__fused_gcn_kernel_eq_skeleton]; unfold cc0__fused_gcn_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1; obtain rfl := harg3.eq_unread hf2; obtain rfl := harg4.eq_unread hf3
    obtain rfl := harg5.eq_unread hf4
    sl_exec
    sl_step
    simp only [View.readAt_eq_ld, harg1.read_unread, harg2.read_unread, harg3.read_unread, harg4.read_unread,
      View.ld_unit_zero (S := S400x10000) off00, View.ld_unit_zero (S := S10000x128) off00,
      View.ld_unit_zero (S := S128x128) off00, View.ld_unit_zero (S := S1x128) off00]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _
    isplitr
    · ipureintro; exact stored_of_store arg5 harg5 i d (k0_pay1 x0 x1 x2 x3)
    iexists _; isplitr; swap; · iexact H4
    ipureintro; rfl

end Cert.Kernel.Body

end
-- ==== Proof.FrameK.lean ====
/-
  The fused layer's kernel over its whole grid of 25 points. The four inputs are fetched into staging buffers (the
  adjacency 400 rows at a time at every point; the node features, the weights and the bias row once) and each point
  finds every input's buffer at that input's block. The output's staging buffer holds the whole `[10000, 128]` output
  and is written back once, after the last point; what it holds when the kernel starts is arbitrary, so nothing names
  its contents point by point. What is stated instead is how ONE point changes it: rows `[400·t, 400·t + 400)` are
  replaced by the block the point computes from the inputs' blocks, every other row is left as found (`outRel`).
  From that, the body obligation, the run of the whole program, and that the argument arrays end unchanged.
-/
import proofs.«125469_g90340342104105_cont_sun_m_338_18_alg».proof.Proof.RunK

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Facts₀ Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The block of 400 output rows point `t` computes, from the inputs' blocks at `t`. -/
def payAt (c : Dev nD) (t : Fin cfg0.N) : S400x128.Idx → Elt F .f32 :=
  k0_pay1 (iblk m c 0 t) (iblk m c 1 t) (iblk m c 2 t) (iblk m c 3 t)

/-- How point `t` changes the output's staging buffer: from `Y` to `X`, rows `[400·t, 400·t + 400)` replaced by the
    point's block. -/
def outRel (c : Dev nD) (t : Fin cfg0.N) (Y X : (cfg0.win 4).block.Idx → Elt F (cfg0.win 4).elt) : Prop :=
  Stored (400 * ((grid0.coords t) 0).val) (payAt m c t) Y X

/-- The data of the four inputs: the arrays as the region finds them, each input's buffer after the body at its block
    (the body only reads it). The output's entry is a placeholder that nothing reads: its relation is `outRel`. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

/-- Which windows are constrained by a relation of their own: the output. -/
def ovr (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => none
  | ⟨4, _⟩ => some (outRel m c)

/-- The relational proof data: the inputs named, the output constrained by `outRel`. -/
def rdat (c : Dev nD) : RDat τ (Elt F) Unit ℕ (UR sig nD τ) ℕ cfg0 c := (dats m c).toR.override (ovr m c)

theorem dats_A (c : Dev nD) (w : Fin cfg0.W) : (dats m c).A w = V m c (Pipeline.arrRef spec0 w) := by
  dsimp only [dats]

theorem rdat_A (c : Dev nD) (w : Fin cfg0.W) : (rdat m c).A w = V m c (Pipeline.arrRef spec0 w) := dats_A m c w

theorem after0 (c : Dev nD) (t : Fin cfg0.N) : (dats m c).after 0 t = iblk m c 0 t := by dsimp only [dats]
theorem after1 (c : Dev nD) (t : Fin cfg0.N) : (dats m c).after 1 t = iblk m c 1 t := by dsimp only [dats]
theorem after2 (c : Dev nD) (t : Fin cfg0.N) : (dats m c).after 2 t = iblk m c 2 t := by dsimp only [dats]
theorem after3 (c : Dev nD) (t : Fin cfg0.N) : (dats m c).after 3 t = iblk m c 3 t := by dsimp only [dats]

/-! ## What the body finds in the inputs' buffers, and may leave there -/

/-- Whatever the adjacency's current buffer may hold at point `t` is the adjacency's block at `t`. -/
theorem finds0 (c : Dev nD) (t : Fin cfg0.N) (Y : (cfg0.win 0).block.Idx → Elt F (cfg0.win 0).elt)
    (h : (rdat m c).Finds 0 t Y) : Y = iblk m c 0 t := by
  obtain ⟨d, hd⟩ := (dats m c).toR_finds 0 t Y (((dats m c).toR.override_finds (ovr := ovr m c) (w := 0) rfl t Y).mp h)
  exact hd.trans (before0_0_of m (dats m c) (dats_A m c 0) (after0 m c) t d)
theorem finds1 (c : Dev nD) (t : Fin cfg0.N) (Y : (cfg0.win 1).block.Idx → Elt F (cfg0.win 1).elt)
    (h : (rdat m c).Finds 1 t Y) : Y = iblk m c 1 t := by
  obtain ⟨d, hd⟩ := (dats m c).toR_finds 1 t Y (((dats m c).toR.override_finds (ovr := ovr m c) (w := 1) rfl t Y).mp h)
  exact hd.trans (before0_1_of m (dats m c) (dats_A m c 1) (after1 m c) t d)
theorem finds2 (c : Dev nD) (t : Fin cfg0.N) (Y : (cfg0.win 2).block.Idx → Elt F (cfg0.win 2).elt)
    (h : (rdat m c).Finds 2 t Y) : Y = iblk m c 2 t := by
  obtain ⟨d, hd⟩ := (dats m c).toR_finds 2 t Y (((dats m c).toR.override_finds (ovr := ovr m c) (w := 2) rfl t Y).mp h)
  exact hd.trans (before0_2_of m (dats m c) (dats_A m c 2) (after2 m c) t d)
theorem finds3 (c : Dev nD) (t : Fin cfg0.N) (Y : (cfg0.win 3).block.Idx → Elt F (cfg0.win 3).elt)
    (h : (rdat m c).Finds 3 t Y) : Y = iblk m c 3 t := by
  obtain ⟨d, hd⟩ := (dats m c).toR_finds 3 t Y (((dats m c).toR.override_finds (ovr := ovr m c) (w := 3) rfl t Y).mp h)
  exact hd.trans (before0_3_of m (dats m c) (dats_A m c 3) (after3 m c) t d)

/-- An input's buffer left at its block is left as the data asks. -/
theorem leaves0 (c : Dev nD) (t : Fin cfg0.N) (Y) : (rdat m c).after 0 t Y (iblk m c 0 t) := by
  unfold rdat
  rw [(dats m c).toR.override_after_of_eq_none (ovr := ovr m c) (w := 0) rfl]
  show (dats m c).Leaves 0 t (iblk m c 0 t)
  unfold Dat.Leaves
  exact (after0 m c t).symm
theorem leaves1 (c : Dev nD) (t : Fin cfg0.N) (Y) : (rdat m c).after 1 t Y (iblk m c 1 t) := by
  unfold rdat
  rw [(dats m c).toR.override_after_of_eq_none (ovr := ovr m c) (w := 1) rfl]
  show (dats m c).Leaves 1 t (iblk m c 1 t)
  unfold Dat.Leaves
  exact (after1 m c t).symm
theorem leaves2 (c : Dev nD) (t : Fin cfg0.N) (Y) : (rdat m c).after 2 t Y (iblk m c 2 t) := by
  unfold rdat
  rw [(dats m c).toR.override_after_of_eq_none (ovr := ovr m c) (w := 2) rfl]
  show (dats m c).Leaves 2 t (iblk m c 2 t)
  unfold Dat.Leaves
  exact (after2 m c t).symm
theorem leaves3 (c : Dev nD) (t : Fin cfg0.N) (Y) : (rdat m c).after 3 t Y (iblk m c 3 t) := by
  unfold rdat
  rw [(dats m c).toR.override_after_of_eq_none (ovr := ovr m c) (w := 3) rfl]
  show (dats m c).Leaves 3 t (iblk m c 3 t)
  unfold Dat.Leaves
  exact (after3 m c t).symm

/-- The output's relation is `outRel`. -/
theorem after_out (c : Dev nD) : (rdat m c).after 4 = outRel m c :=
  (dats m c).toR.override_after_of_eq_some (ovr := ovr m c) (w := 4) rfl

/-! ## The body obligation -/

/-- Each window's current staging buffer at point `t`, as the pipeline hands it to the body. -/
abbrev stg0 (t : Fin cfg0.N) : Memref sig .tc .vmem S400x10000 .f32 := win0_0.stage (cfg0.slots t 0)
abbrev stg1 (t : Fin cfg0.N) : Memref sig .tc .vmem S10000x128 .f32 := win0_1.stage (cfg0.slots t 1)
abbrev stg2 (t : Fin cfg0.N) : Memref sig .tc .vmem S128x128 .f32 := win0_2.stage (cfg0.slots t 2)
abbrev stg3 (t : Fin cfg0.N) : Memref sig .tc .vmem S1x128 .f32 := win0_3.stage (cfg0.slots t 3)
abbrev stg4 (t : Fin cfg0.N) : Memref sig .tc .vmem S10000x128 .f32 := win0_4.stage (cfg0.slots t 4)

/-- The body at point `t`, handed the inputs' buffers at their blocks and the output's at any contents `Y 4`: it hands
    the inputs back at their blocks and the output at contents `outRel` relates to `Y 4`; the invariant and the core's
    debts pass through untouched. -/
theorem sound_body (c : Dev nD) (t : Fin cfg0.N) (Y : (w : Fin cfg0.W) → (cfg0.win w).block.Idx → Elt F (cfg0.win w).elt)
    (h0 : Y 0 = iblk m c 0 t) (h1 : Y 1 = iblk m c 1 t) (h2 : Y 2 = iblk m c 2 t) (h3 : Y 3 = iblk m c 3 t) :
    iprop((rdat m c).Φ t.castSucc ∗ (rdat m c).owesAt () t.castSucc
        ∗ owns (c : Thread nD τ) (stg0 t) fullShare (Y 0) ∗ owns (c : Thread nD τ) (stg1 t) fullShare (Y 1)
        ∗ owns (c : Thread nD τ) (stg2 t) fullShare (Y 2) ∗ owns (c : Thread nD τ) (stg3 t) fullShare (Y 3)
        ∗ owns (c : Thread nD τ) (stg4 t) fullShare (Y 4))
      ⊢ wp frame (wpE (defs₀ (F := F)) Variants.none c none) Set.univ (bodyAt0 t) (fun _ =>
          iprop((rdat m c).Φ t.succ ∗ (rdat m c).owesAt () t.succ
            ∗ (∃ X, ⌜(rdat m c).after 0 t (Y 0) X⌝ ∗ owns (c : Thread nD τ) (stg0 t) fullShare X)
            ∗ (∃ X, ⌜(rdat m c).after 1 t (Y 1) X⌝ ∗ owns (c : Thread nD τ) (stg1 t) fullShare X)
            ∗ (∃ X, ⌜(rdat m c).after 2 t (Y 2) X⌝ ∗ owns (c : Thread nD τ) (stg2 t) fullShare X)
            ∗ (∃ X, ⌜(rdat m c).after 3 t (Y 3) X⌝ ∗ owns (c : Thread nD τ) (stg3 t) fullShare X)
            ∗ (∃ X, ⌜(rdat m c).after 4 t (Y 4) X⌝ ∗ owns (c : Thread nD τ) (stg4 t) fullShare X))) := by
  unfold bodyAt0
  rw [show (rdat m c).Φ t.succ = (rdat m c).Φ t.castSucc from rfl,
    show (rdat m c).owesAt () t.succ = (rdat m c).owesAt () t.castSucc from rfl, h0, h1, h2, h3, after_out m c]
  iintro ⟨HΦ, Ho, H0, H1, H2, H3, H4⟩
  iapply ((bodyRun c (grid0.coords t) _ _ _ _ _ _ _ _ _ _ (iblk m c 0 t) (iblk m c 1 t) (iblk m c 2 t) (iblk m c 3 t) (Y 4)) Set.univ _)
  isplitl [H0]; · iexact H0
  isplitl [H1]; · iexact H1
  isplitl [H2]; · iexact H2
  isplitl [H3]; · iexact H3
  isplitl [H4]; · iexact H4
  iintro ⟨H0, H1, H2, H3, ⟨%X, %hX, H4⟩⟩
  isplitl [HΦ]; · iexact HΦ
  isplitl [Ho]; · iexact Ho
  isplitl [H0]
  · iexists _; isplitr; · ipureintro; exact leaves0 m c t _
    iexact H0
  isplitl [H1]
  · iexists _; isplitr; · ipureintro; exact leaves1 m c t _
    iexact H1
  isplitl [H2]
  · iexists _; isplitr; · ipureintro; exact leaves2 m c t _
    iexact H2
  isplitl [H3]
  · iexists _; isplitr; · ipureintro; exact leaves3 m c t _
    iexact H3
  iexists X; isplitr; · ipureintro; exact hX
  iexact H4

/-- The body obligation of the relational data, at every point. -/
theorem body_obligation (c : Dev nD) : (rdat m c).BodyObligation (defs₀ (F := F)) Variants.none () Set.univ := fun t Y hY => by
  rw [bigSep_W0, bigSep_W0]
  exact sound_body m c t Y (finds0 m c t _ (hY 0)) (finds1 m c t _ (hY 1)) (finds2 m c t _ (hY 2)) (finds3 m c t _ (hY 3))

/-! ## The run, and the argument arrays -/

set_option backward.isDefEq.respectTransparency.types false in
/-- Every weakly fair execution of the program terminates; at the end each array the kernel's windows stage holds
    contents the relational data allows after every write-back, and every other buffer what the region found there. -/
theorem run_main : θ_run defs (onTc (τ := τ) (main (F := F))) (s₀ m ρ) (Pipeline.RDat.FramePost (cfgs 0) (fun c => rdat m c) (V m)) :=
  Pipeline.RDat.θ_run_frame cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := rdat_A m) (hΦ := fun _ _ => rfl)

/-- At the run's end the argument arrays are as they were launched: the three the kernel stages are inputs, never
    written back; the bias is staged only through its reshaped copy, and no one writes it. -/
theorem args_of_post (r : PUnit × MemSt nD τ sig (Elt F))
    (h : Pipeline.RDat.FramePost (cfgs 0) (fun c => rdat m c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(Eq.mp (congrFun ((rdat m c).ArrAt_in 1 rfl _) _) ((h c).1 1)).trans ((rdat_A m c 1).trans (V_main_arg0 m c)),
   (Eq.mp (congrFun ((rdat m c).ArrAt_in 0 rfl _) _) ((h c).1 0)).trans ((rdat_A m c 0).trans (V_main_arg1 m c)),
   (Eq.mp (congrFun ((rdat m c).ArrAt_in 2 rfl _) _) ((h c).1 2)).trans ((rdat_A m c 2).trans (V_main_arg2 m c)),
   ((h c).2 main_arg3 (Pipeline.mem_restRefs_of main_arg3 (by decide) (by decide))).trans (V_main_arg3 m c)⟩

/-- The program runs, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => args_of_post m r h c) (run_main m ρ)

end Cert.Kernel.Body

end
-- ==== Proof.RunKI.lean ====
/-
  One grid point of the fused layer's kernel. The body reads its four input blocks whole (a block of 400 rows of the
  adjacency, all the node features, the weights, the bias as one row), computes a block `v` of 400 output rows from them,
  and stores `v` into rows `[400·i, 400·i + 400)` of the output's staging buffer, which holds the WHOLE output
  `[10000, 128]` and is carried from point to point. So the buffer after the point is the buffer before it with those
  400 rows replaced (`Stored`), every other row untouched; the inputs are left as they were.
-/
import proofs.«125469_g90340342104105_cont_sun_m_338_18_alg».proof.Proof.Gen.KernelIdeal.Frame
import proofs.«125469_g90340342104105_cont_sun_m_338_18_alg».proof.Proof.Gen.KernelIdeal.Skeleton
import Idealize.ShloMosaic.Lib.WritesUnit
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Facts₀ Facts

variable {F : FTy → Type} [FloatOps F]

local notation "𝕄" => MT nD τ sig Unit (Elt F) ℕ (UR sig nD τ) ℕ

/-- Rows `[o, o + 400)` of `X` are the block `v`; every other row of `X` is that row of `d`. -/
def Stored (o : ℕ) (v : S400x128.Idx → Elt F .f32) (d X : S10000x128.Idx → Elt F .f32) : Prop :=
  (∀ (x : S400x128.Idx) (y : S10000x128.Idx), (y 0).val = o + (x 0).val → (y 1).val = (x 1).val → X y = v x)
    ∧ (∀ y : S10000x128.Idx, ((y 0).val < o ∨ o + 400 ≤ (y 0).val) → X y = d y)

/-- The offsets `(0, 0)` of a whole-block access. -/
theorem off00 : (![0, 0] : Fin 2 → ℕ) = fun _ => 0 := by
  funext a; match a with | ⟨0, _⟩ => rfl | ⟨1, _⟩ => rfl

/-- One store of a 400-row block at the point's row offset into a buffer holding `d`: read back, the buffer is `d`
    with those rows replaced. The offset the kernel computes, `i · 400` as a machine word, is the number `400 · i`
    at every point of the grid. -/
theorem stored_of_store (arg5 : Memref sig .tc .vmem S10000x128 .f32) (harg5 : arg5.IsWhole) (i : grid0.Coords)
    (d : S10000x128.Idx → Elt F .f32) (v : S400x128.Idx → Elt F .f32) :
    Stored (400 * (i 0).val) v d
      (arg5.view.read (Elt F) (arg5.view.writes (Elt F) (harg5.unread d)
        [⟨Rect.unit (s := S10000x128) (k0_off1 i) S400x128.size (Facts₀.k0_off1_inb i), v⟩])) :=
  ⟨fun x y h0 h1 => View.read_writes_cons_rows_of_mem arg5.view (harg5.unread d) (Facts₀.k0_off1_inb i) v [] y x (k0_off1_eq i) h0 h1,
   fun y h => (View.read_writes_cons_rows_of_not_mem arg5.view (harg5.unread d) (Facts₀.k0_off1_inb i) v [] y (k0_off1_eq i) rfl h).trans
      (congrFun (harg5.read_unread d) y)⟩

set_option maxHeartbeats 1000000 in
/-- The body's triple at grid coordinates `i`: from the four inputs' staging buffers at `x0 … x3` and the output's at
    `d`, the body runs to the inputs' buffers unchanged and the output's at `d` with rows `[400·i, 400·i + 400)`
    replaced by the block computed from `x0 … x3`. -/
theorem bodyRun (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S10000x128 .f32) (harg5 : arg5.IsWhole)
    (x0 : Vec F S400x10000 .f32) (x1 : Vec F S10000x128 .f32) (x2 : Vec F S128x128 .f32) (x3 : Vec F S1x128 .f32) (d : Vec F S10000x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare d
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ X, ⌜Stored (400 * (i 0).val) (k0_pay1 x0 x1 x2 x3) d X⌝ ∗ owns (c : Thread nD τ) arg5 fullShare X)) -∗ K ⟨⟩))
          ⊢ wp frame (wpE (defs₀ (F := F)) Variants.none c none) E (cc0__fused_gcn_kernel i arg1 harg1 arg2 harg2 arg3 harg3 arg4 harg4 arg5 harg5) K := by
    intro E K
    simp only [cc0__fused_gcn_kernel_eq_skeleton]; unfold cc0__fused_gcn_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1; obtain rfl := harg3.eq_unread hf2; obtain rfl := harg4.eq_unread hf3
    obtain rfl := harg5.eq_unread hf4
    sl_exec
    sl_step
    simp only [View.readAt_eq_ld, harg1.read_unread, harg2.read_unread, harg3.read_unread, harg4.read_unread,
      View.ld_unit_zero (S := S400x10000) off00, View.ld_unit_zero (S := S10000x128) off00,
      View.ld_unit_zero (S := S128x128) off00, View.ld_unit_zero (S := S1x128) off00]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _
    isplitr
    · ipureintro; exact stored_of_store arg5 harg5 i d (k0_pay1 x0 x1 x2 x3)
    iexists _; isplitr; swap; · iexact H4
    ipureintro; rfl

end Cert.KernelIdeal.Body

end
-- ==== Proof.FrameKI.lean ====
/-
  The fused layer's kernel over its whole grid of 25 points. The four inputs are fetched into staging buffers (the
  adjacency 400 rows at a time at every point; the node features, the weights and the bias row once) and each point
  finds every input's buffer at that input's block. The output's staging buffer holds the whole `[10000, 128]` output
  and is written back once, after the last point; what it holds when the kernel starts is arbitrary, so nothing names
  its contents point by point. What is stated instead is how ONE point changes it: rows `[400·t, 400·t + 400)` are
  replaced by the block the point computes from the inputs' blocks, every other row is left as found (`outRel`).
  From that, the body obligation, the run of the whole program, and that the argument arrays end unchanged.
-/
import proofs.«125469_g90340342104105_cont_sun_m_338_18_alg».proof.Proof.RunKI

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Facts₀ Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The block of 400 output rows point `t` computes, from the inputs' blocks at `t`. -/
def payAt (c : Dev nD) (t : Fin cfg0.N) : S400x128.Idx → Elt F .f32 :=
  k0_pay1 (iblk m c 0 t) (iblk m c 1 t) (iblk m c 2 t) (iblk m c 3 t)

/-- How point `t` changes the output's staging buffer: from `Y` to `X`, rows `[400·t, 400·t + 400)` replaced by the
    point's block. -/
def outRel (c : Dev nD) (t : Fin cfg0.N) (Y X : (cfg0.win 4).block.Idx → Elt F (cfg0.win 4).elt) : Prop :=
  Stored (400 * ((grid0.coords t) 0).val) (payAt m c t) Y X

/-- The data of the four inputs: the arrays as the region finds them, each input's buffer after the body at its block
    (the body only reads it). The output's entry is a placeholder that nothing reads: its relation is `outRel`. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

/-- Which windows are constrained by a relation of their own: the output. -/
def ovr (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => none
  | ⟨4, _⟩ => some (outRel m c)

/-- The relational proof data: the inputs named, the output constrained by `outRel`. -/
def rdat (c : Dev nD) : RDat τ (Elt F) Unit ℕ (UR sig nD τ) ℕ cfg0 c := (dats m c).toR.override (ovr m c)

theorem dats_A (c : Dev nD) (w : Fin cfg0.W) : (dats m c).A w = V m c (Pipeline.arrRef spec0 w) := by
  dsimp only [dats]

theorem rdat_A (c : Dev nD) (w : Fin cfg0.W) : (rdat m c).A w = V m c (Pipeline.arrRef spec0 w) := dats_A m c w

theorem after0 (c : Dev nD) (t : Fin cfg0.N) : (dats m c).after 0 t = iblk m c 0 t := by dsimp only [dats]
theorem after1 (c : Dev nD) (t : Fin cfg0.N) : (dats m c).after 1 t = iblk m c 1 t := by dsimp only [dats]
theorem after2 (c : Dev nD) (t : Fin cfg0.N) : (dats m c).after 2 t = iblk m c 2 t := by dsimp only [dats]
theorem after3 (c : Dev nD) (t : Fin cfg0.N) : (dats m c).after 3 t = iblk m c 3 t := by dsimp only [dats]

/-! ## What the body finds in the inputs' buffers, and may leave there -/

/-- Whatever the adjacency's current buffer may hold at point `t` is the adjacency's block at `t`. -/
theorem finds0 (c : Dev nD) (t : Fin cfg0.N) (Y : (cfg0.win 0).block.Idx → Elt F (cfg0.win 0).elt)
    (h : (rdat m c).Finds 0 t Y) : Y = iblk m c 0 t := by
  obtain ⟨d, hd⟩ := (dats m c).toR_finds 0 t Y (((dats m c).toR.override_finds (ovr := ovr m c) (w := 0) rfl t Y).mp h)
  exact hd.trans (before0_0_of m (dats m c) (dats_A m c 0) (after0 m c) t d)
theorem finds1 (c : Dev nD) (t : Fin cfg0.N) (Y : (cfg0.win 1).block.Idx → Elt F (cfg0.win 1).elt)
    (h : (rdat m c).Finds 1 t Y) : Y = iblk m c 1 t := by
  obtain ⟨d, hd⟩ := (dats m c).toR_finds 1 t Y (((dats m c).toR.override_finds (ovr := ovr m c) (w := 1) rfl t Y).mp h)
  exact hd.trans (before0_1_of m (dats m c) (dats_A m c 1) (after1 m c) t d)
theorem finds2 (c : Dev nD) (t : Fin cfg0.N) (Y : (cfg0.win 2).block.Idx → Elt F (cfg0.win 2).elt)
    (h : (rdat m c).Finds 2 t Y) : Y = iblk m c 2 t := by
  obtain ⟨d, hd⟩ := (dats m c).toR_finds 2 t Y (((dats m c).toR.override_finds (ovr := ovr m c) (w := 2) rfl t Y).mp h)
  exact hd.trans (before0_2_of m (dats m c) (dats_A m c 2) (after2 m c) t d)
theorem finds3 (c : Dev nD) (t : Fin cfg0.N) (Y : (cfg0.win 3).block.Idx → Elt F (cfg0.win 3).elt)
    (h : (rdat m c).Finds 3 t Y) : Y = iblk m c 3 t := by
  obtain ⟨d, hd⟩ := (dats m c).toR_finds 3 t Y (((dats m c).toR.override_finds (ovr := ovr m c) (w := 3) rfl t Y).mp h)
  exact hd.trans (before0_3_of m (dats m c) (dats_A m c 3) (after3 m c) t d)

/-- An input's buffer left at its block is left as the data asks. -/
theorem leaves0 (c : Dev nD) (t : Fin cfg0.N) (Y) : (rdat m c).after 0 t Y (iblk m c 0 t) := by
  unfold rdat
  rw [(dats m c).toR.override_after_of_eq_none (ovr := ovr m c) (w := 0) rfl]
  show (dats m c).Leaves 0 t (iblk m c 0 t)
  unfold Dat.Leaves
  exact (after0 m c t).symm
theorem leaves1 (c : Dev nD) (t : Fin cfg0.N) (Y) : (rdat m c).after 1 t Y (iblk m c 1 t) := by
  unfold rdat
  rw [(dats m c).toR.override_after_of_eq_none (ovr := ovr m c) (w := 1) rfl]
  show (dats m c).Leaves 1 t (iblk m c 1 t)
  unfold Dat.Leaves
  exact (after1 m c t).symm
theorem leaves2 (c : Dev nD) (t : Fin cfg0.N) (Y) : (rdat m c).after 2 t Y (iblk m c 2 t) := by
  unfold rdat
  rw [(dats m c).toR.override_after_of_eq_none (ovr := ovr m c) (w := 2) rfl]
  show (dats m c).Leaves 2 t (iblk m c 2 t)
  unfold Dat.Leaves
  exact (after2 m c t).symm
theorem leaves3 (c : Dev nD) (t : Fin cfg0.N) (Y) : (rdat m c).after 3 t Y (iblk m c 3 t) := by
  unfold rdat
  rw [(dats m c).toR.override_after_of_eq_none (ovr := ovr m c) (w := 3) rfl]
  show (dats m c).Leaves 3 t (iblk m c 3 t)
  unfold Dat.Leaves
  exact (after3 m c t).symm

/-- The output's relation is `outRel`. -/
theorem after_out (c : Dev nD) : (rdat m c).after 4 = outRel m c :=
  (dats m c).toR.override_after_of_eq_some (ovr := ovr m c) (w := 4) rfl

/-! ## The body obligation -/

/-- Each window's current staging buffer at point `t`, as the pipeline hands it to the body. -/
abbrev stg0 (t : Fin cfg0.N) : Memref sig .tc .vmem S400x10000 .f32 := win0_0.stage (cfg0.slots t 0)
abbrev stg1 (t : Fin cfg0.N) : Memref sig .tc .vmem S10000x128 .f32 := win0_1.stage (cfg0.slots t 1)
abbrev stg2 (t : Fin cfg0.N) : Memref sig .tc .vmem S128x128 .f32 := win0_2.stage (cfg0.slots t 2)
abbrev stg3 (t : Fin cfg0.N) : Memref sig .tc .vmem S1x128 .f32 := win0_3.stage (cfg0.slots t 3)
abbrev stg4 (t : Fin cfg0.N) : Memref sig .tc .vmem S10000x128 .f32 := win0_4.stage (cfg0.slots t 4)

/-- The body at point `t`, handed the inputs' buffers at their blocks and the output's at any contents `Y 4`: it hands
    the inputs back at their blocks and the output at contents `outRel` relates to `Y 4`; the invariant and the core's
    debts pass through untouched. -/
theorem sound_body (c : Dev nD) (t : Fin cfg0.N) (Y : (w : Fin cfg0.W) → (cfg0.win w).block.Idx → Elt F (cfg0.win w).elt)
    (h0 : Y 0 = iblk m c 0 t) (h1 : Y 1 = iblk m c 1 t) (h2 : Y 2 = iblk m c 2 t) (h3 : Y 3 = iblk m c 3 t) :
    iprop((rdat m c).Φ t.castSucc ∗ (rdat m c).owesAt () t.castSucc
        ∗ owns (c : Thread nD τ) (stg0 t) fullShare (Y 0) ∗ owns (c : Thread nD τ) (stg1 t) fullShare (Y 1)
        ∗ owns (c : Thread nD τ) (stg2 t) fullShare (Y 2) ∗ owns (c : Thread nD τ) (stg3 t) fullShare (Y 3)
        ∗ owns (c : Thread nD τ) (stg4 t) fullShare (Y 4))
      ⊢ wp frame (wpE (defs₀ (F := F)) Variants.none c none) Set.univ (bodyAt0 t) (fun _ =>
          iprop((rdat m c).Φ t.succ ∗ (rdat m c).owesAt () t.succ
            ∗ (∃ X, ⌜(rdat m c).after 0 t (Y 0) X⌝ ∗ owns (c : Thread nD τ) (stg0 t) fullShare X)
            ∗ (∃ X, ⌜(rdat m c).after 1 t (Y 1) X⌝ ∗ owns (c : Thread nD τ) (stg1 t) fullShare X)
            ∗ (∃ X, ⌜(rdat m c).after 2 t (Y 2) X⌝ ∗ owns (c : Thread nD τ) (stg2 t) fullShare X)
            ∗ (∃ X, ⌜(rdat m c).after 3 t (Y 3) X⌝ ∗ owns (c : Thread nD τ) (stg3 t) fullShare X)
            ∗ (∃ X, ⌜(rdat m c).after 4 t (Y 4) X⌝ ∗ owns (c : Thread nD τ) (stg4 t) fullShare X))) := by
  unfold bodyAt0
  rw [show (rdat m c).Φ t.succ = (rdat m c).Φ t.castSucc from rfl,
    show (rdat m c).owesAt () t.succ = (rdat m c).owesAt () t.castSucc from rfl, h0, h1, h2, h3, after_out m c]
  iintro ⟨HΦ, Ho, H0, H1, H2, H3, H4⟩
  iapply ((bodyRun c (grid0.coords t) _ _ _ _ _ _ _ _ _ _ (iblk m c 0 t) (iblk m c 1 t) (iblk m c 2 t) (iblk m c 3 t) (Y 4)) Set.univ _)
  isplitl [H0]; · iexact H0
  isplitl [H1]; · iexact H1
  isplitl [H2]; · iexact H2
  isplitl [H3]; · iexact H3
  isplitl [H4]; · iexact H4
  iintro ⟨H0, H1, H2, H3, ⟨%X, %hX, H4⟩⟩
  isplitl [HΦ]; · iexact HΦ
  isplitl [Ho]; · iexact Ho
  isplitl [H0]
  · iexists _; isplitr; · ipureintro; exact leaves0 m c t _
    iexact H0
  isplitl [H1]
  · iexists _; isplitr; · ipureintro; exact leaves1 m c t _
    iexact H1
  isplitl [H2]
  · iexists _; isplitr; · ipureintro; exact leaves2 m c t _
    iexact H2
  isplitl [H3]
  · iexists _; isplitr; · ipureintro; exact leaves3 m c t _
    iexact H3
  iexists X; isplitr; · ipureintro; exact hX
  iexact H4

/-- The body obligation of the relational data, at every point. -/
theorem body_obligation (c : Dev nD) : (rdat m c).BodyObligation (defs₀ (F := F)) Variants.none () Set.univ := fun t Y hY => by
  rw [bigSep_W0, bigSep_W0]
  exact sound_body m c t Y (finds0 m c t _ (hY 0)) (finds1 m c t _ (hY 1)) (finds2 m c t _ (hY 2)) (finds3 m c t _ (hY 3))

/-! ## The run, and the argument arrays -/

set_option backward.isDefEq.respectTransparency.types false in
/-- Every weakly fair execution of the program terminates; at the end each array the kernel's windows stage holds
    contents the relational data allows after every write-back, and every other buffer what the region found there. -/
theorem run_main : θ_run defs (onTc (τ := τ) (main (F := F))) (s₀ m ρ) (Pipeline.RDat.FramePost (cfgs 0) (fun c => rdat m c) (V m)) :=
  Pipeline.RDat.θ_run_frame cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := rdat_A m) (hΦ := fun _ _ => rfl)

/-- At the run's end the argument arrays are as they were launched: the three the kernel stages are inputs, never
    written back; the bias is staged only through its reshaped copy, and no one writes it. -/
theorem args_of_post (r : PUnit × MemSt nD τ sig (Elt F))
    (h : Pipeline.RDat.FramePost (cfgs 0) (fun c => rdat m c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(Eq.mp (congrFun ((rdat m c).ArrAt_in 1 rfl _) _) ((h c).1 1)).trans ((rdat_A m c 1).trans (V_main_arg0 m c)),
   (Eq.mp (congrFun ((rdat m c).ArrAt_in 0 rfl _) _) ((h c).1 0)).trans ((rdat_A m c 0).trans (V_main_arg1 m c)),
   (Eq.mp (congrFun ((rdat m c).ArrAt_in 2 rfl _) _) ((h c).1 2)).trans ((rdat_A m c 2).trans (V_main_arg2 m c)),
   ((h c).2 main_arg3 (Pipeline.mem_restRefs_of main_arg3 (by decide) (by decide))).trans (V_main_arg3 m c)⟩

/-- The program runs, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => args_of_post m r h c) (run_main m ρ)

end Cert.KernelIdeal.Body

end
-- ==== Proof.Spec.lean ====
/-
  One graph-convolution layer on the extended reals, entry by entry:

      out (r, q) = tanh ( ∑ c, ( ∑ k, adj (r, k) · x (k, c) ) · W (q, c)  +  b q ).

  The inner sum is row `r` of `adj · x` (the neighbourhood aggregate), the outer sum its product with row `q` of `W`
  (the linear map `· Wᵀ`), then the bias and the hyperbolic tangent.
-/
import Idealize.ShloMosaic.Lib.ValueIdx
import Idealize.ShloMosaic.PureOps.Ideal

noncomputable section

namespace Cert.Gcn

open Idealize.ShloMosaic Idealize.ShloMosaic.ValueIdx
open scoped BigOperators

/-- Entry `(r, q)` of the layer's output, from the node features `x`, the adjacency `adj`, the weights `W` and the
    bias `b`. -/
def entry (x : (⟨2, ![10000, 128]⟩ : Shape).Idx → EReal) (adj : (⟨2, ![10000, 10000]⟩ : Shape).Idx → EReal)
    (W : (⟨2, ![128, 128]⟩ : Shape).Idx → EReal) (b : (⟨1, ![128]⟩ : Shape).Idx → EReal) (r : Fin 10000) (q : Fin 128) : EReal :=
  Ideal.tanh ((∑ c : Fin 128, (∑ k : Fin 10000, adj (ix2 r k) * x (ix2 k c)) * W (ix2 q c)) + b (ix1 q))

/-- The layer's whole output array. -/
def layer (x : (⟨2, ![10000, 128]⟩ : Shape).Idx → EReal) (adj : (⟨2, ![10000, 10000]⟩ : Shape).Idx → EReal)
    (W : (⟨2, ![128, 128]⟩ : Shape).Idx → EReal) (b : (⟨1, ![128]⟩ : Shape).Idx → EReal) :
    (⟨2, ![10000, 128]⟩ : Shape).Idx → EReal :=
  fun i => entry x adj W b ⟨(i 0).val, idx2_lt0 i⟩ ⟨(i 1).val, idx2_lt1 i⟩

theorem layer_apply (x : (⟨2, ![10000, 128]⟩ : Shape).Idx → EReal) (adj : (⟨2, ![10000, 10000]⟩ : Shape).Idx → EReal)
    (W : (⟨2, ![128, 128]⟩ : Shape).Idx → EReal) (b : (⟨1, ![128]⟩ : Shape).Idx → EReal) (r : Fin 10000) (q : Fin 128) :
    layer x adj W b (ix2 r q) = entry x adj W b r q := rfl

end Cert.Gcn

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.LibHiLoMatmul.lean ====
/-
  A matrix product `A · Bᵀ` of an `[m, k]` by an `[n, k]` operand (both contracted on their last axis) that is computed
  as THREE products into a zero accumulator, each operand split into a leading part and the remainder left after taking
  the leading part away,

      lead A · lead Bᵀ  +  lead A · rest Bᵀ  +  rest A · lead Bᵀ,

  read at an index over the extended reals. There the narrowing to the leading part is the identity, so the remainder
  of a FINITE entry is `a − a = 0`, the two mixed products vanish term by term (`a · 0 = 0`, `0 · b = 0`), and the
  three-product sum at `(p, q)` is the plain inner product `∑ c, A (p, c) · B (q, c)`. Proved here:

  • `sub_self_of_real`: a finite extended real minus itself is zero;
  • `matmul_nt_zero_apply`: one such product into the zero splat, read at `(p, q)`, is the sum over the contracted
    coordinate `c : Fin k` of `A (p, c) · B (q, c)`;
  • `three_matmul_apply`: the three-product sum above, for operands with finite entries, is that same inner product;
  • `sign_select_apply`: the vector term `select (|x| > 0) (select (x < 0) (−1) 1) x` read at an index is `Ideal.sign`
    of the element, at every extended real.
-/
import Idealize.ShloMosaic.Lib.ValueLayout
import Idealize.ShloMosaic.PureOps.Ideal.Laws

namespace Cert.HiLoMatmul

open Idealize.ShloMosaic Idealize.ShloMosaic.ValueIdx

/-- A finite extended real minus itself is zero (which fails at the two infinities). -/
theorem sub_self_of_real {x : EReal} (h : ∃ r : ℝ, x = (r : EReal)) : x - x = 0 := by
  obtain ⟨r, rfl⟩ := h
  rw [← EReal.coe_sub, sub_self, EReal.coe_zero]

/-- The dimension numbers of `A · Bᵀ`: both operands contracted on axis 1, rows of each kept. -/
abbrev ntDims {m k n : ℕ} (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

/-- One product `A · Bᵀ` into the zero splat, read at `(p, q)`: the sum over the contracted coordinate of the
    products of the entries. -/
theorem matmul_nt_zero_apply {m k n : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (p : Fin m) (q : Fin n) :
    FloatOps.matmul (ntDims w) prec A B (constant (F := Ideal) ⟨2, ![m, n]⟩ .f32 0x00000000#32) (ix2 p q)
      = ∑ c : Fin k, A (ix2 p c) * B (ix2 q c) := by
  rw [Ideal.matmul_constant_zero_apply, ← Equiv.sum_comp (contrEquiv1 (ntDims w) k rfl rfl).symm]
  refine Finset.sum_congr rfl fun c _ => ?_
  have hc := contrEquiv1_symm_val (ntDims w) k rfl rfl c
  have hl : (ntDims w).lhsIdx (ix2 p q) ((contrEquiv1 (ntDims w) k rfl rfl).symm c) = ix2 p c := by
    funext ax; apply Fin.ext
    match ax with
    | ⟨0, _⟩ => simp [DotDims.lhsIdx]; rfl
    | ⟨1, _⟩ => simp [DotDims.lhsIdx]; exact hc
  have hr : (ntDims w).rhsIdx (ix2 p q) ((contrEquiv1 (ntDims w) k rfl rfl).symm c) = ix2 q c := by
    funext ax; apply Fin.ext
    match ax with
    | ⟨0, _⟩ => simp [DotDims.rhsIdx]; rfl
    | ⟨1, _⟩ => simp [DotDims.rhsIdx]; exact hc
  rw [hl, hr]

/-- The three-product sum: with the narrowing the identity and every entry finite, the two products against a
    remainder are sums of zeros, and what is left is the inner product. -/
theorem three_matmul_apply {m k n : ℕ} {φ : FTy}
    (w : DotDims.WF ⟨2, ![m, k]⟩ ⟨2, ![n, k]⟩ ⟨2, ![m, n]⟩ [1] [1] [0] [0] [] [])
    (prec : Option ContractPrecision) (hlt : φ.bits < FTy.bits .f32)
    (A : FVec Ideal ⟨2, ![m, k]⟩ .f32) (B : FVec Ideal ⟨2, ![n, k]⟩ .f32)
    (hA : ∀ j, ∃ r : ℝ, A j = (r : EReal)) (hB : ∀ j, ∃ r : ℝ, B j = (r : EReal)) (p : Fin m) (q : Fin n) :
    addf (addf
        (matmul (ntDims w) prec (truncf φ A hlt) (truncf φ B hlt) (constant ⟨2, ![m, n]⟩ .f32 0x00000000#32))
        (matmul (ntDims w) prec (truncf φ A hlt) (truncf φ (subf B B) hlt) (constant ⟨2, ![m, n]⟩ .f32 0x00000000#32)))
        (matmul (ntDims w) prec (truncf φ (subf A A) hlt) (truncf φ B hlt) (constant ⟨2, ![m, n]⟩ .f32 0x00000000#32))
        (ix2 p q)
      = ∑ c : Fin k, A (ix2 p c) * B (ix2 q c) := by
  rw [addf_apply, addf_apply]
  simp only [matmul]
  rw [matmul_nt_zero_apply, matmul_nt_zero_apply, matmul_nt_zero_apply]
  have h2 : ∑ c : Fin k, (truncf φ A hlt : FVec Ideal _ φ) (ix2 p c) * (truncf φ (subf B B) hlt : FVec Ideal _ φ) (ix2 q c) = 0 :=
    Finset.sum_eq_zero fun c _ => by
      rw [truncf_apply, truncf_apply, subf_apply, sub_self_of_real (hB _), mul_zero]
  have h3 : ∑ c : Fin k, (truncf φ (subf A A) hlt : FVec Ideal _ φ) (ix2 p c) * (truncf φ B hlt : FVec Ideal _ φ) (ix2 q c) = 0 :=
    Finset.sum_eq_zero fun c _ => by
      rw [truncf_apply, truncf_apply, subf_apply, sub_self_of_real (hA _), zero_mul]
  rw [h2, h3, add_zero, add_zero]
  exact Finset.sum_congr rfl fun c _ => by rw [truncf_apply, truncf_apply]

/-- The term printed for a sign, `select (|x| > 0) (select (x < 0) (−1) 1) x` over a whole `f32` vector, read at an
    index: `Ideal.sign` of the element, the two infinities and zero included. -/
theorem sign_select_apply {s : Shape} (x : FVec Ideal s .f32) (i : s.Idx) :
    select (cmpf .ogt (absf x) (broadcast s (Scalar.ofBits .f32 0x00000000#32)))
        (select (cmpf .olt x (constant s .f32 0x00000000#32)) (constant s .f32 0xBF800000#32)
          (constant s .f32 0x3F800000#32)) x i
      = Ideal.sign (x i) :=
  Ideal.jnp_sign_eq_sign_f32 (x i)

end Cert.HiLoMatmul
-- ==== Proof.Payload.lean ====
/-
  The kernel's arithmetic on one block of 400 rows, read at an index.

  The block's value is  tanh ( (A · x) · Wᵀ + b )  with `A` the 400 rows of the adjacency held by the block: a product
  of `A` with the node features into a zero accumulator, a product of that with the weights contracted on the
  weights' SECOND axis (so the weights are read at `(q, c)`, no transpose is formed), the bias row laid along the 400
  rows, a sum and the hyperbolic tangent. At `(p, q)` this is
  `tanh ( ∑ c, (∑ k, A (p, k) · x (k, c)) · W (q, c) + b (0, q) )`.
-/
import proofs.«125469_g90340342104105_cont_sun_m_338_18_alg».proof.Proof.Gen.KernelIdeal.Skeleton
import proofs.«125469_g90340342104105_cont_sun_m_338_18_alg».proof.Proof.LibDenseRows
import proofs.«125469_g90340342104105_cont_sun_m_338_18_alg».proof.Proof.LibHiLoMatmul
import Idealize.ShloMosaic.Lib.ValueIdx
import Idealize.ShloMosaic.Lib.ValueLayout
import Idealize.ShloMosaic.Lib.Pipeline.Value
import Idealize.ShloMosaic.PureOps.Ideal

noncomputable section

namespace Cert.GcnPayload

open Idealize.ShloMosaic Idealize.ShloMosaic.ValueIdx Idealize.SL.Sem
open Cert.KernelIdeal Cert.KernelIdeal.Gen
open scoped BigOperators

variable [Cert.KernelIdeal.Facts]

/-- The first product keeps the left operand's row: its left index has the output's row on axis 0. -/
theorem agg_lhs0 (j : S400x128.Idx) (k : dot_S400x10000_S10000x128_S400x128_1_0_0_1_n_n.contr.Idx) :
    (dot_S400x10000_S10000x128_S400x128_1_0_0_1_n_n.lhsIdx j k (0 : Fin 2)).val = (j (0 : Fin 2)).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl

/-- The first product keeps the right operand's column: its right index has the output's column on axis 1. -/
theorem agg_rhs1 (j : S400x128.Idx) (k : dot_S400x10000_S10000x128_S400x128_1_0_0_1_n_n.contr.Idx) :
    (dot_S400x10000_S10000x128_S400x128_1_0_0_1_n_n.rhsIdx j k (1 : Fin 2)).val = (j (1 : Fin 2)).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

theorem pay_apply (x0 : Vec Ideal Cert.KernelIdeal.S400x10000 .f32) (x1 : Vec Ideal Cert.KernelIdeal.S10000x128 .f32) (x3 : Vec Ideal Cert.KernelIdeal.S128x128 .f32) (x5 : Vec Ideal Cert.KernelIdeal.S1x128 .f32) (p : Fin 400) (q : Fin 128) :
    Cert.KernelIdeal.Gen.k0_pay1 (F := Ideal) x0 x1 x3 x5 (ix2 p q)
      = Ideal.tanh ((∑ c : Fin 128, (∑ k : Fin 10000, x0 (ix2 p k) * x1 (ix2 k c)) * x3 (ix2 q c)) + x5 (ix2 (0 : Fin 1) q)) := by
  unfold k0_pay1
  refine congrArg Ideal.tanh ?_
  refine (addf_apply _ _ _).trans ?_
  refine congrArg₂ (· + ·) ?_ ?_
  · refine (Cert.HiLoMatmul.matmul_nt_zero_apply dot_S400x128_S128x128_S400x128_1_1_0_0_n_n.wf none _ x3 p q).trans ?_
    refine Finset.sum_congr rfl fun c _ => congrArg (· * x3 (ix2 q c)) ?_
    exact Cert.DenseRows.matmul_zero_plain_apply dot_S400x10000_S10000x128_S400x128_1_0_0_1_n_n rfl rfl rfl rfl agg_lhs0 agg_rhs1 x0 x1 p c
  · refine (broadcastTo_1b_ab_apply _ _ p q).trans ?_
    exact congrFun (shapeCast_self x5 _) _

end Cert.GcnPayload

end
-- ==== Proof.BlockLayer.lean ====
/-
  One grid point's block of output rows is the layer of the argument arrays on those rows.

  At grid point `t` the four input windows hold: rows `400·t … 400·t + 399` of the adjacency; all of the node
  features; all of the weights; and the one-row array `[1, 128]` that a reshape of the bias `[128]` wrote before the
  region. A coordinate inside a block sits in the array at  (block index) × (block size) + (coordinate in the block),
  and the block indices are `(t, 0)` for the adjacency and `(0, 0)` for the other three. So the block's arithmetic at
  `(p, q)` reads the adjacency in row `400·t + p`, everything else where the specification's entry `(400·t + p, q)`
  reads it, and the one-row bias at `(0, q)` is the bias at `q`.
-/
import proofs.«125469_g90340342104105_cont_sun_m_338_18_alg».proof.Proof.Gen.KernelIdeal.Frame
import proofs.«125469_g90340342104105_cont_sun_m_338_18_alg».proof.Proof.Payload
import proofs.«125469_g90340342104105_cont_sun_m_338_18_alg».proof.Proof.Spec
import Idealize.ShloMosaic.Lib.StableHlo.Run
import Idealize.ShloMosaic.Lib.ValueIdx
import Idealize.ShloMosaic.Lib.ValueLayout

set_option maxRecDepth 16384

noncomputable section

namespace Cert.GcnBlock

open Cert.KernelIdeal Cert.KernelIdeal.Gen Idealize.ShloMosaic Idealize.ShloMosaic.TcCoe Idealize.SL.Sem
open Idealize.ShloMosaic.ValueIdx
open scoped BigOperators

/-- The windows' block indices, decided once over the grid: the adjacency's block moves down one block of rows per
    point and stays in the first block of columns; the other three windows stay on their only block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

variable (m : (ℓ : Loc nD τ sig) → Buf (Elt Ideal) ℓ)

/-- The adjacency's block at point `t`, at `(p, k)`, is the adjacency at `(400·t + p, k)`. -/
theorem adj_read (c : Dev nD) (t : Fin cfg0.N) (p : Fin 400) (k : Fin 10000) (r : Fin 10000)
    (hr : r.val = 400 * t.val + p.val) :
    (iblk m c 0 t : Vec Ideal S400x10000 .f32) (ix2 p k)
      = (m ((c.tc : Thread nD τ).loc main_arg1) : S10000x10000.Idx → EReal) (ix2 r k) := by
  obtain ⟨e0, e1, -⟩ := idx_facts t
  refine Eq.trans ?_ (congrFun (V_main_arg1 m c) (ix2 r k))
  show (V m c main_arg1 : S10000x10000.Idx → EReal) (((cfg0.win 0).blk t).view.emb (ix2 p k)) = _
  refine congrArg _ (funext fun a => Fin.ext ?_)
  match a with
  | ⟨0, _⟩ => show win0_0.index t (0 : Fin 2) * 400 + 1 * p.val = r.val; omega
  | ⟨1, _⟩ => show win0_0.index t (1 : Fin 2) * 10000 + 1 * k.val = k.val; omega

/-- The node features' block is the whole array: at `(k, c')` it is the node features at `(k, c')`. -/
theorem feat_read (c : Dev nD) (t : Fin cfg0.N) (k : Fin 10000) (c' : Fin 128) :
    (iblk m c 1 t : Vec Ideal S10000x128 .f32) (ix2 k c')
      = (m ((c.tc : Thread nD τ).loc main_arg0) : S10000x128.Idx → EReal) (ix2 k c') := by
  obtain ⟨-, -, e0, e1, -⟩ := idx_facts t
  refine Eq.trans ?_ (congrFun (V_main_arg0 m c) (ix2 k c'))
  show (V m c main_arg0 : S10000x128.Idx → EReal) (((cfg0.win 1).blk t).view.emb (ix2 k c')) = _
  refine congrArg _ (funext fun a => Fin.ext ?_)
  match a with
  | ⟨0, _⟩ => show win0_1.index t (0 : Fin 2) * 10000 + 1 * k.val = k.val; omega
  | ⟨1, _⟩ => show win0_1.index t (1 : Fin 2) * 128 + 1 * c'.val = c'.val; omega

/-- The weights' block is the whole array: at `(q, c')` it is the weights at `(q, c')`. -/
theorem weight_read (c : Dev nD) (t : Fin cfg0.N) (q c' : Fin 128) :
    (iblk m c 2 t : Vec Ideal S128x128 .f32) (ix2 q c')
      = (m ((c.tc : Thread nD τ).loc main_arg2) : S128x128.Idx → EReal) (ix2 q c') := by
  obtain ⟨-, -, -, -, e0, e1, -⟩ := idx_facts t
  refine Eq.trans ?_ (congrFun (V_main_arg2 m c) (ix2 q c'))
  show (V m c main_arg2 : S128x128.Idx → EReal) (((cfg0.win 2).blk t).view.emb (ix2 q c')) = _
  refine congrArg _ (funext fun a => Fin.ext ?_)
  match a with
  | ⟨0, _⟩ => show win0_2.index t (0 : Fin 2) * 128 + 1 * q.val = q.val; omega
  | ⟨1, _⟩ => show win0_2.index t (1 : Fin 2) * 128 + 1 * c'.val = c'.val; omega

/-- The one-row array the region finds is the bias cast to one row. -/
theorem biasRow_eq (c : Dev nD) :
    (V m c main_v0 : S1x128.Idx → EReal)
      = shapeCast S1x128 (m ((c.tc : Thread nD τ).loc main_arg3)) shapeCasts_S128_S1x128 := by
  dsimp only [Gen.V, Gen.hostOps0]; after_results; rfl

/-- The bias row's block is the whole one-row array: at `(0, q)` it is the bias at `q`. -/
theorem bias_read (c : Dev nD) (t : Fin cfg0.N) (q : Fin 128) :
    (iblk m c 3 t : Vec Ideal S1x128 .f32) (ix2 (0 : Fin 1) q)
      = (m ((c.tc : Thread nD τ).loc main_arg3) : S128.Idx → EReal) (ix1 q) := by
  obtain ⟨-, -, -, -, -, -, e0, e1⟩ := idx_facts t
  have hcast : (V m c main_v0 : S1x128.Idx → EReal) (ix2 (0 : Fin 1) q)
      = (m ((c.tc : Thread nD τ).loc main_arg3) : S128.Idx → EReal) (ix1 q) :=
    (congrFun (biasRow_eq m c) _).trans (shapeCast_a_1a_apply _ shapeCasts_S128_S1x128 0 q)
  refine Eq.trans ?_ hcast
  show (V m c main_v0 : S1x128.Idx → EReal) (((cfg0.win 3).blk t).view.emb (ix2 (0 : Fin 1) q)) = _
  refine congrArg _ (funext fun a => Fin.ext ?_)
  match a with
  | ⟨0, _⟩ => show win0_3.index t (0 : Fin 2) * 1 + 1 * (0 : Fin 1).val = (0 : Fin 1).val; omega
  | ⟨1, _⟩ => show win0_3.index t (1 : Fin 2) * 128 + 1 * q.val = q.val; omega

/-- The body's arithmetic at point `t`, at `x` inside the block, is the layer of the argument arrays at the array
    index `y` that `x` is: row `400·t + (row of x)`, the same column. -/
theorem block_layer (c : Dev nD) (t : Fin cfg0.N) (x : S400x128.Idx) (y : S10000x128.Idx)
    (h0 : (y 0).val = 400 * t.val + (x 0).val) (h1 : (y 1).val = (x 1).val) :
    k0_pay1 (F := Ideal) (iblk m c 0 t) (iblk m c 1 t) (iblk m c 2 t) (iblk m c 3 t) x
      = Cert.Gcn.layer (m ((c.tc : Thread nD τ).loc main_arg0)) (m ((c.tc : Thread nD τ).loc main_arg1)) (m ((c.tc : Thread nD τ).loc main_arg2)) (m ((c.tc : Thread nD τ).loc main_arg3)) y := by
  obtain ⟨p, q, rfl⟩ : ∃ (p : Fin 400) (q : Fin 128), x = ix2 p q := ⟨x 0, x 1, eq_ix2 x⟩
  obtain ⟨r, q', rfl⟩ : ∃ (r : Fin 10000) (q' : Fin 128), y = ix2 r q' := ⟨y 0, y 1, eq_ix2 y⟩
  have hr : r.val = 400 * t.val + p.val := h0
  have hq : q' = q := Fin.ext h1
  subst hq
  refine (Cert.GcnPayload.pay_apply (iblk m c 0 t) (iblk m c 1 t) (iblk m c 2 t) (iblk m c 3 t) p q').trans ?_
  refine Eq.trans ?_ (Cert.Gcn.layer_apply _ _ _ _ r q').symm
  unfold Cert.Gcn.entry
  refine congrArg Ideal.tanh ?_
  refine congrArg₂ (· + ·) ?_ (bias_read m c t q')
  refine Finset.sum_congr rfl fun c' _ => ?_
  refine congrArg₂ (· * ·) ?_ (weight_read m c t q' c')
  refine Finset.sum_congr rfl fun k _ => ?_
  exact congrArg₂ (· * ·) (adj_read m c t p k r hr) (feat_read m c t k c')

end Cert.GcnBlock

end
-- ==== Proof.LibCarriedWindow.lean ====
/-
  A staging buffer that a pipeline CARRIES from grid point to grid point: the window is never fetched into, and no
  point before a given one writes it back. Then what the body may find in the buffer at a point is, after the first
  point, exactly what it may have left at the point before, so a property of the buffer's contents that holds of
  anything at the first point and that every point's relation carries one step forward holds of whatever the body may
  find at every point (`finds_induction`), and of whatever it may leave (`leaves_induction`). And when the window is
  written back at the last point, what its array may hold after the run is the array's contents before that write-back
  overwritten, on the last point's block, by the moved part of something the body may have left there
  (`arrAt_of_last_flush`): with the induction, the final array from a point-by-point invariant of a buffer whose
  starting contents nothing names.
-/
import Idealize.ShloMosaic.Lib.Pipeline.Cells

namespace Cert.CarriedWindow

open Idealize.ShloMosaic Idealize.ShloMosaic.Pipeline Idealize.SL.Sem

variable {nD : Nat} {τ : Topo} {sig : RefSig} {Val : EltTy → Type}
variable {Ix : Type} [DecidableEq Ix] {Name : Type} [DecidableEq Name] {U : Type} [Idealize.SL.RA.URA U] {Lvl : Type}
variable {Λ₀ : Labels} {cfg : Cfg sig Λ₀} {c : Dev nD} (rd : RDat τ Val Ix Name U Lvl cfg c)

/-- An invariant of a carried buffer: `P n` holds of whatever the body may find at point `n`, if it holds of anything
    at point `0` and each point `t` whose successor is at most `n`… carries it from what it found to what it leaves. -/
theorem finds_induction (w : Fin cfg.W) (hfetch : ∀ t : Fin cfg.N, (cfg.win w).fetch t = false)
    (P : ℕ → ((cfg.win w).block.Idx → Val (cfg.win w).elt) → Prop) (h0 : ∀ Y, P 0 Y)
    (hstep : ∀ (t : Fin cfg.N) Y X, P t.val Y → rd.after w t Y X → P (t.val + 1) X) :
    ∀ (n : ℕ) (hn : n < cfg.N), (∀ u : Fin cfg.N, u.val < n → (cfg.win w).flush u = false) →
      ∀ Y, rd.Finds w ⟨n, hn⟩ Y → P n Y
  | 0, _, _, Y, _ => h0 Y
  | n + 1, hn, hfl, Y, hF => by
    rcases (rd.finds_of_pos (w := w) (t := ⟨n + 1, hn⟩) (hfetch _) (Nat.succ_ne_zero n) Y).mp hF with h | ⟨Y', hY', hrel⟩
    · exact absurd ((hfl ⟨n, Nat.lt_of_succ_lt hn⟩ (Nat.lt_succ_self n)).symm.trans h) Bool.false_ne_true
    · exact hstep ⟨n, Nat.lt_of_succ_lt hn⟩ Y' Y
        (finds_induction w hfetch P h0 hstep n (Nat.lt_of_succ_lt hn) (fun u hu => hfl u (Nat.lt_succ_of_lt hu)) Y' hY') hrel

/-- The same of what the body may leave at point `n`: the invariant one step further. -/
theorem leaves_induction (w : Fin cfg.W) (hfetch : ∀ t : Fin cfg.N, (cfg.win w).fetch t = false)
    (P : ℕ → ((cfg.win w).block.Idx → Val (cfg.win w).elt) → Prop) (h0 : ∀ Y, P 0 Y)
    (hstep : ∀ (t : Fin cfg.N) Y X, P t.val Y → rd.after w t Y X → P (t.val + 1) X)
    (n : ℕ) (hn : n < cfg.N) (hfl : ∀ u : Fin cfg.N, u.val < n → (cfg.win w).flush u = false)
    (X : (cfg.win w).block.Idx → Val (cfg.win w).elt) (hL : rd.Leaves w ⟨n, hn⟩ X) : P (n + 1) X := by
  obtain ⟨Y, hY, hrel⟩ := hL
  exact hstep ⟨n, hn⟩ Y X (finds_induction rd w hfetch P h0 hstep n hn hfl Y hY) hrel

/-- A window written back at the grid's last point: its array after the run is its contents before that write-back
    with the last point's block overwritten by the moved part of something the body may have left there. -/
theorem arrAt_of_last_flush (w : Fin cfg.W) (n : ℕ) (hn : n < cfg.N) (hN : cfg.N = n + 1)
    (hflush : (cfg.win w).flush ⟨n, hn⟩ = true) (G : Buf Val ((cfg.win w).arr.view.loc (c.tc : Thread nD τ)))
    (h : rd.ArrAt w cfg.N G) :
    ∃ G₀ X, rd.Leaves w ⟨n, hn⟩ X
      ∧ G = ((cfg.win w).blk ⟨n, hn⟩).view.write Val G₀ ((cfg.win w).cut (cfg.grid.coords ⟨n, hn⟩) X) Finset.univ := by
  have h' : rd.ArrAt w ((⟨n, hn⟩ : Fin cfg.N).val + 1) G := by rw [hN] at h; exact h
  rw [RDat.ArrAt_succ, if_pos hflush] at h'
  obtain ⟨G₀, X, -, hX, rfl⟩ := h'
  exact ⟨G₀, X, hX, rfl⟩

end Cert.CarriedWindow
-- ==== Proof.ValueKI.lean ====
/-
  What the fused layer's kernel leaves in its output array. Point `t` of the grid replaces rows `[400·t, 400·t + 400)`
  of the output's staging buffer by the layer's rows there and touches no other row; the buffer is carried through all 25
  points and written back once, whole, after the last. So by induction on the point the rows below `400·t` are the
  layer's when point `t` starts, all `10000 = 25·400` rows are after the last point, and the array ends holding the
  layer of the argument arrays.
-/
import proofs.«125469_g90340342104105_cont_sun_m_338_18_alg».proof.Proof.FrameKI
import proofs.«125469_g90340342104105_cont_sun_m_338_18_alg».proof.Proof.Spec
import proofs.«125469_g90340342104105_cont_sun_m_338_18_alg».proof.Proof.BlockLayer
import proofs.«125469_g90340342104105_cont_sun_m_338_18_alg».proof.Proof.LibCarriedWindow
import Idealize.ShloMosaic.Lib.ValueIdx
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Facts₀ Facts

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

/-- The layer's output computed from the argument arrays as launched. -/
abbrev target (c : Dev nD) : S10000x128.Idx → EReal :=
  Cert.Gcn.layer (m ((c.tc : Thread nD τ).loc main_arg0)) (m ((c.tc : Thread nD τ).loc main_arg1))
    (m ((c.tc : Thread nD τ).loc main_arg2)) (m ((c.tc : Thread nD τ).loc main_arg3))

/-- The grid has one axis: point `t` has coordinate `t`. -/
theorem coords0 : ∀ t : Fin cfg0.N, ((grid0.coords t) 0).val = t.val :=
  (by decide +kernel : ∀ t : Fin grid0.N, ((grid0.coords t) 0).val = t.val)
/-- The output is never fetched. -/
theorem fetch4 : ∀ t : Fin cfg0.N, (cfg0.win 4).fetch t = false :=
  (by decide +kernel : ∀ t : Fin grid0.N, win0_4.fetch t = false)
/-- The output's block is the whole array at every point. -/
theorem index4 : ∀ (t : Fin cfg0.N) (a : Fin 2), win0_4.index t a = 0 :=
  (by decide +kernel : ∀ (t : Fin grid0.N) (a : Fin 2), win0_4.index t a = 0)

/-- ONE POINT. If the rows below `400·t` of the buffer the point finds are the layer's, the rows below `400·(t+1)` of the
    buffer it leaves are: the 400 rows it stores are the layer's rows there (the block computed from the inputs' blocks),
    the rows below are untouched. -/
theorem step_rows (c : Dev nD) (t : Fin cfg0.N) (Y X : (cfg0.win 4).block.Idx → Elt Ideal (cfg0.win 4).elt)
    (hrel : outRel m c t Y X) (hY : ∀ y : S10000x128.Idx, (y 0).val < 400 * t.val → Y y = target m c y) :
    ∀ y : S10000x128.Idx, (y 0).val < 400 * (t.val + 1) → X y = target m c y := by
  intro y hy
  unfold outRel Stored at hrel
  rw [coords0 t] at hrel
  obtain ⟨hin, hout⟩ := hrel
  by_cases h : (y 0).val < 400 * t.val
  · exact (hout y (.inl h)).trans (hY y h)
  · have hy1 : (y 1).val < 128 := ValueIdx.idx2_lt1 y
    have hx0 : (y 0).val - 400 * t.val < 400 := by omega
    have e0 : (y 0).val = 400 * t.val + ((ValueIdx.ix2 (⟨(y 0).val - 400 * t.val, hx0⟩ : Fin 400) (⟨(y 1).val, hy1⟩ : Fin 128)) 0).val := by
      show (y 0).val = 400 * t.val + ((y 0).val - 400 * t.val); omega
    exact (hin (ValueIdx.ix2 (⟨(y 0).val - 400 * t.val, hx0⟩ : Fin 400) (⟨(y 1).val, hy1⟩ : Fin 128)) y e0 rfl).trans
      (Cert.GcnBlock.block_layer m c t _ y e0 rfl)

/-- The rows below `400·n` of the buffer are the layer's. -/
def RowsBelow (c : Dev nD) (n : ℕ) (Y : (cfg0.win 4).block.Idx → Elt Ideal (cfg0.win 4).elt) : Prop :=
  ∀ y : S10000x128.Idx, (y 0).val < 400 * n → Y y = target m c y

/-- No point before the last writes the output back. -/
theorem flush_before (t : Fin cfg0.N) (h : t.val < 24) : (cfg0.win 4).flush t = false := by
  cases hf : (cfg0.win 4).flush t
  · rfl
  · have := (flush0_4 t).mp hf; omega

/-- THE ARRAY. Whatever the output array may hold after the last point's write-back is the layer of the argument
    arrays. The buffer is carried through all 25 points (never fetched into, written back only after the last), nothing
    is asked of the arbitrary contents the first point finds, and each point carries "the rows below `400·t` are the
    layer's" one step forward; so all `25·400` rows of what the last point leaves are the layer's, and the one
    write-back writes the whole array from it. -/
theorem out_eq (c : Dev nD) (G : Buf (Elt Ideal) ((cfg0.win 4).arr.view.loc (c.tc : Thread nD τ)))
    (h : (rdat m c).ArrAt 4 cfg0.N G) : G = target m c := by
  have h24 : 24 < cfg0.N := by show 24 < grid0.N; rw [N_0]; omega
  obtain ⟨G₀, X, hL, rfl⟩ := Cert.CarriedWindow.arrAt_of_last_flush (rdat m c) 4 24 h24 N_0 ((flush0_4 _).mpr rfl) G h
  have hX : RowsBelow m c (24 + 1) X :=
    Cert.CarriedWindow.leaves_induction (rdat m c) 4 fetch4 (RowsBelow m c) (fun Y y hy => absurd hy (by omega))
      (fun t Y X hP hrel => step_rows m c t Y X (by rw [after_out] at hrel; exact hrel) hP)
      24 h24 (fun u hu => flush_before u hu) X hL
  have hcut : (cfg0.win 4).cut (cfg0.grid.coords ⟨24, h24⟩) X
      = ((cfg0.win 4).blk ⟨24, h24⟩).view.read (Elt Ideal) (target m c) := by
    funext j
    show X j = target m c (((cfg0.win 4).blk ⟨24, h24⟩).view.emb j)
    rw [hX j (by have := ValueIdx.idx2_lt0 j; omega)]
    refine congrArg (target m c) (funext fun a => Fin.ext ?_)
    exact (Pipeline.Window.rect_emb_val_of_index_zero win0_4 ⟨24, h24⟩ a (index4 _ a) j).symm
  have e0 := index4 ⟨24, h24⟩ (0 : Fin 2)
  have e1 := index4 ⟨24, h24⟩ (1 : Fin 2)
  rw [hcut, View.write_read_eq_piecewise]
  funext i
  refine Finset.piecewise_eq_of_mem _ _ _ ?_
  rw [View.setOn_univ]
  show i ∈ ((View.whole main_v1).slice (win0_4.rect ⟨24, h24⟩)).set
  rw [View.set_slice_whole, Rect.mem_set_unit]
  intro a
  match a with
  | ⟨0, _⟩ =>
    show win0_4.index ⟨24, h24⟩ (0 : Fin 2) * 10000 ≤ (i 0).val ∧ (i 0).val < win0_4.index ⟨24, h24⟩ (0 : Fin 2) * 10000 + 10000
    have := ValueIdx.idx2_lt0 i; omega
  | ⟨1, _⟩ =>
    show win0_4.index ⟨24, h24⟩ (1 : Fin 2) * 128 ≤ (i 1).val ∧ (i 1).val < win0_4.index ⟨24, h24⟩ (1 : Fin 2) * 128 + 128
    have := ValueIdx.idx2_lt1 i; omega

/-! ## The run, with the result named -/

/-- Every weakly fair execution of the kernel's program terminates with its result array holding the layer of the
    argument arrays, and the argument arrays unchanged. -/
theorem run_value : θ_run defs (onTc (τ := τ) (main (F := Ideal))) ⟨m, fun _ => 0, ρ⟩ (fun r => ∀ c : Dev nD,
      r.2.mem ((c.tc : Thread nD τ).loc main_v1) = target m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨out_eq m c _ ((h c).1 4), args_of_post m r h c⟩) (run_main m ρ)

end Cert.KernelIdeal.Body

end
-- ==== Proof.RefValue.lean ====
/-
  The reference's result, one operation at a time, read at an index.

  The reference computes  tanh ( (adj · x) · Wᵀ + b )  as: a contraction of `adj` with `x`, a transpose of `W`, a
  contraction of the first product with the transposed weights, the bias laid along every row, a sum and the hyperbolic
  tangent. Read at `(r, q)`: the transposed weights at `(c, q)` are `W (q, c)`, so the second contraction is
  `∑ c, (∑ k, adj (r, k) · x (k, c)) · W (q, c)` — the specification's entry.
-/
import proofs.«125469_g90340342104105_cont_sun_m_338_18_alg».proof.Proof.Gen.ReferenceIdeal.Read
import proofs.«125469_g90340342104105_cont_sun_m_338_18_alg».proof.Proof.Spec
import Idealize.ShloMosaic.Lib.ValueIdx

noncomputable section

namespace Cert.GcnRef

open Idealize.ShloMosaic Idealize.ShloMosaic.ValueIdx Idealize.ShloMosaic.StableHlo
open Cert.ReferenceIdeal Cert.ReferenceIdeal.Read
open scoped BigOperators

/-- The left operand of the second contraction is read in row `r`, column `c`. -/
theorem lidx2_eq (r : Fin 10000) (q c : Fin 128) : lidx_main_v2 (ix2 r q) c = ix2 r c :=
  funext fun a => Fin.ext (by match a with | ⟨0, _⟩ => rfl | ⟨1, _⟩ => rfl)

/-- The transposed weights are read at `(c, q)`, that is the weights at `(q, c)`. -/
theorem widx_eq (r : Fin 10000) (q c : Fin 128) : idx_main_v1 (ridx_main_v2 (ix2 r q) c) = ix2 q c :=
  funext fun a => Fin.ext (by match a with | ⟨0, _⟩ => rfl | ⟨1, _⟩ => rfl)

/-- The adjacency is read in row `r`, column `k`. -/
theorem lidx0_eq (r : Fin 10000) (c : Fin 128) (k : Fin 10000) : lidx_main_v0 (ix2 r c) k = ix2 r k :=
  funext fun a => Fin.ext (by match a with | ⟨0, _⟩ => rfl | ⟨1, _⟩ => rfl)

/-- The node features are read in row `k`, column `c`. -/
theorem ridx0_eq (r : Fin 10000) (c : Fin 128) (k : Fin 10000) : ridx_main_v0 (ix2 r c) k = ix2 k c :=
  funext fun a => Fin.ext (by match a with | ⟨0, _⟩ => rfl | ⟨1, _⟩ => rfl)

/-- The bias laid along every row is read at `q`. -/
theorem bidx_eq (r : Fin 10000) (q : Fin 128) : idx_main_v3 (idx_main_v4 (ix2 r q)) = ix1 q :=
  funext fun a => Fin.ext (by match a with | ⟨0, _⟩ => rfl)

theorem ref_eq_layer (x0 : (⟨Cert.ReferenceIdeal.S10000x128, .f32⟩ : BufTy).Contents (Elt Ideal)) (x1 : (⟨Cert.ReferenceIdeal.S10000x10000, .f32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) :
    Cert.ReferenceIdeal.Read.val_main_v6 (F := Ideal) x0 x1 x2 x3 = Cert.Gcn.layer x0 x1 x2 x3 := by
  funext i
  obtain ⟨r, q, rfl⟩ : ∃ (r : Fin 10000) (q : Fin 128), i = ix2 r q := ⟨i 0, i 1, eq_ix2 i⟩
  rw [Cert.Gcn.layer_apply, val_main_v6_apply, val_main_v5_apply, val_main_v2_apply, val_main_v4_apply, val_main_v3_apply, bidx_eq]
  unfold Cert.Gcn.entry
  have hsum : (∑ c : Fin 128, val_main_v0 (F := Ideal) x0 x1 (lidx_main_v2 (ix2 r q) c) * val_main_v1 (F := Ideal) x2 (ridx_main_v2 (ix2 r q) c))
      = ∑ c : Fin 128, (∑ k : Fin 10000, x1 (ix2 r k) * x0 (ix2 k c)) * x2 (ix2 q c) :=
    Finset.sum_congr rfl fun c _ => by
      rw [val_main_v1_apply, widx_eq, lidx2_eq, val_main_v0_apply]
      refine congrArg (· * x2 (ix2 q c)) (Finset.sum_congr rfl fun k _ => ?_)
      rw [lidx0_eq, ridx0_eq]
  rw [hsum]
  rfl

end Cert.GcnRef

end
-- ==== Proof.lean ====
/-
  A fused graph-convolution layer, `out = tanh((adj · x) · Wᵀ + b)`, computed by a kernel that walks the adjacency 400
  rows at a time, against the same formula written with whole-array operations.

  At the ideal values both are one function of the argument arrays: entry `(r, q)` is
  `tanh (∑ c, (∑ k, adj (r, k) · x (k, c)) · W (q, c) + b q)` — the same nesting of the two sums on both sides, so no law
  of the extended reals beyond reading each operation at an index is used, and the inputs' finiteness is never opened.
  The kernel's side: each of the 25 grid points replaces 400 rows of a staging buffer that holds the whole output and
  leaves the other rows alone; by induction on the point all rows are the layer's after the last point, and the one
  write-back stores them. The reference's side: its operations read one at a time at an index.
-/
import proofs.«125469_g90340342104105_cont_sun_m_338_18_alg».proof.Defs
import proofs.«125469_g90340342104105_cont_sun_m_338_18_alg».proof.Proof.Gen.Kernel
import proofs.«125469_g90340342104105_cont_sun_m_338_18_alg».proof.Proof.Gen.KernelIdeal
import proofs.«125469_g90340342104105_cont_sun_m_338_18_alg».proof.Proof.Gen.ReferenceIdeal
import proofs.«125469_g90340342104105_cont_sun_m_338_18_alg».proof.Proof.Gen.ReferenceIdeal.Run
import proofs.«125469_g90340342104105_cont_sun_m_338_18_alg».proof.Proof.Gen.ReferenceIdeal.Read
import proofs.«125469_g90340342104105_cont_sun_m_338_18_alg».proof.Proof.Gen.Pre_finite_inputs
import proofs.«125469_g90340342104105_cont_sun_m_338_18_alg».proof.Proof.FrameK
import proofs.«125469_g90340342104105_cont_sun_m_338_18_alg».proof.Proof.ValueKI
import proofs.«125469_g90340342104105_cont_sun_m_338_18_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Body.frame (F := Bits) m ρ

/-- So does the kernel read at the ideal values. -/
theorem frame_ki : Cert.frame_KernelIdeal (hKernelIdeal := Cert.KernelIdeal.Gen.facts) (hPre_finite_inputs := Cert.Pre_finite_inputs.Gen.facts) :=
  fun m ρ _ => Cert.KernelIdeal.Body.frame (F := Ideal) m ρ

/-- The reference is a straight line of whole-array operations: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the layer of the argument arrays in their result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Body.target m c, Cert.KernelIdeal.Body.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.GcnRef.ref_eq_layer, (hagree c).1, (hagree c).2.1, (hagree c).2.2.1,
    (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
